-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S8x576x128x128 : Shape := ⟨4, ![8, 576, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel
  bcast_S_S8x576x128x128 : S_.BroadcastsInDim S8x576x128x128 (![] : Fin 0 → Fin S8x576x128x128.rank)
  reducesTo_S8x576x128x128_S_d0_1_2_3 : S8x576x128x128.ReducesTo [0, 1, 2, 3] S_

variable [Facts]

def fn {F : FTy → Type} [FloatOps F] (main_arg0 : FVec F S8x64x128x128 .f32) (main_arg1 : FVec F S8x576x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  let main_v4 : FVec F S8x576x128x128 .f32 := Host.absf main_arg1
  let main_cst_0 : FVec F S_ .f32 := constant S_ .f32 0x7F800000#32
  let main_v5 : FVec F S8x576x128x128 .f32 := broadcastInDim S8x576x128x128 ![] bcast_S_S8x576x128x128 main_cst_0
  let main_v6 : IVec S8x576x128x128 1 := cmpf .olt main_v4 main_v5
  let main_c_1 : IVec S_ 1 := constantI S_ 1 1#1
  let main_v7 : IVec S_ 1 := (fun x v => Host.reduce IntOp.andi x v reducesTo_S8x576x128x128_S_d0_1_2_3 h_S_) main_v6 main_c_1
  let main_v8 : IVec S_ 1 := andi main_v3 main_v7
  main_v8
-- ==== Kernel.lean ====
abbrev S8x64x128x128 : Shape := ⟨4, ![8, 64, 128, 128]⟩
abbrev S8x576x128x128 : Shape := ⟨4, ![8, 576, 128, 128]⟩
abbrev S_ : Shape := ⟨0, ![]⟩
abbrev S8x64x130x130 : Shape := ⟨4, ![8, 64, 130, 130]⟩
abbrev S1x32x130x130 : Shape := ⟨4, ![1, 32, 130, 130]⟩
abbrev S1x288x128x128 : Shape := ⟨4, ![1, 288, 128, 128]⟩
abbrev S1x32x128x128 : Shape := ⟨4, ![1, 32, 128, 128]⟩
abbrev S32x130x130 : Shape := ⟨3, ![32, 130, 130]⟩
abbrev S288x128x128 : Shape := ⟨3, ![288, 128, 128]⟩
abbrev S32x9x128x128 : Shape := ⟨4, ![32, 9, 128, 128]⟩
abbrev S32x128x128 : Shape := ⟨3, ![32, 128, 128]⟩
abbrev S32x1x128x128 : Shape := ⟨4, ![32, 1, 128, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x64x128x128, .f32⟩
  | .hbm, ⟨1, _⟩ => ⟨S8x576x128x128, .f32⟩
  | .hbm, ⟨2, _⟩ => ⟨S_, .i32⟩
  | .hbm, ⟨3, _⟩ => ⟨S_, .f32⟩
  | .hbm, ⟨4, _⟩ => ⟨S8x64x130x130, .f32⟩
  | .hbm, ⟨5, _⟩ => ⟨S8x64x128x128, .f32⟩
  | .local _ .vmem, ⟨0, _⟩ => ⟨S1x32x130x130, .f32⟩
  | .local _ .vmem, ⟨1, _⟩ => ⟨S1x32x130x130, .f32⟩
  | .local _ .vmem, ⟨2, _⟩ => ⟨S1x288x128x128, .f32⟩
  | .local _ .vmem, ⟨3, _⟩ => ⟨S1x288x128x128, .f32⟩
  | .local _ .vmem, ⟨4, _⟩ => ⟨S1x32x128x128, .f32⟩
  | .local _ .vmem, ⟨5, _⟩ => ⟨S1x32x128x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x130x130 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x288x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  inb_S1x32x130x130_S1x32x130x130_0_0_0_0 : ∀ a, (![0, 0, 0, 0] : Fin 4 → Nat) a + S1x32x130x130.size a ≤ S1x32x130x130.size a
  h_S1x32x130x130 : 0 < S1x32x130x130.numel
  shapeCasts_S1x32x130x130_S32x130x130 : S1x32x130x130.ShapeCasts S32x130x130
  inb_S1x288x128x128_S1x288x128x128_0_0_0_0 : ∀ a, (![0, 0, 0, 0] : Fin 4 → Nat) a + S1x288x128x128.size a ≤ S1x288x128x128.size a
  h_S1x288x128x128 : 0 < S1x288x128x128.numel
  shapeCasts_S1x288x128x128_S288x128x128 : S1x288x128x128.ShapeCasts S288x128x128
  shapeCasts_S288x128x128_S32x9x128x128 : S288x128x128.ShapeCasts S32x9x128x128
  slices_S32x130x130_o0_0_0_S32x128x128 : S32x130x130.Slices ![0, 0, 0] S32x128x128
  slices_S32x9x128x128_o0_0_0_0_S32x1x128x128 : S32x9x128x128.Slices ![0, 0, 0, 0] S32x1x128x128
  shapeCasts_S32x1x128x128_S32x128x128 : S32x1x128x128.ShapeCasts S32x128x128
  slices_S32x130x130_o0_0_1_S32x128x128 : S32x130x130.Slices ![0, 0, 1] S32x128x128
  slices_S32x9x128x128_o0_1_0_0_S32x1x128x128 : S32x9x128x128.Slices ![0, 1, 0, 0] S32x1x128x128
  slices_S32x130x130_o0_0_2_S32x128x128 : S32x130x130.Slices ![0, 0, 2] S32x128x128
  slices_S32x9x128x128_o0_2_0_0_S32x1x128x128 : S32x9x128x128.Slices ![0, 2, 0, 0] S32x1x128x128
  slices_S32x130x130_o0_1_0_S32x128x128 : S32x130x130.Slices ![0, 1, 0] S32x128x128
  slices_S32x9x128x128_o0_3_0_0_S32x1x128x128 : S32x9x128x128.Slices ![0, 3, 0, 0] S32x1x128x128
  slices_S32x130x130_o0_1_1_S32x128x128 : S32x130x130.Slices ![0, 1, 1] S32x128x128
  slices_S32x9x128x128_o0_4_0_0_S32x1x128x128 : S32x9x128x128.Slices ![0, 4, 0, 0] S32x1x128x128
  slices_S32x130x130_o0_1_2_S32x128x128 : S32x130x130.Slices ![0, 1, 2] S32x128x128
  slices_S32x9x128x128_o0_5_0_0_S32x1x128x128 : S32x9x128x128.Slices ![0, 5, 0, 0] S32x1x128x128
  slices_S32x130x130_o0_2_0_S32x128x128 : S32x130x130.Slices ![0, 2, 0] S32x128x128
  slices_S32x9x128x128_o0_6_0_0_S32x1x128x128 : S32x9x128x128.Slices ![0, 6, 0, 0] S32x1x128x128
  slices_S32x130x130_o0_2_1_S32x128x128 : S32x130x130.Slices ![0, 2, 1] S32x128x128
  slices_S32x9x128x128_o0_7_0_0_S32x1x128x128 : S32x9x128x128.Slices ![0, 7, 0, 0] S32x1x128x128
  slices_S32x130x130_o0_2_2_S32x128x128 : S32x130x130.Slices ![0, 2, 2] S32x128x128
  slices_S32x9x128x128_o0_8_0_0_S32x1x128x128 : S32x9x128x128.Slices ![0, 8, 0, 0] S32x1x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x130x130.size a ≤ S8x64x130x130.size a
  hwx0_0 : ∀ i : grid0.Coords, EltTy.bits .f32 = 32 ∨ (Rect.block (s := S8x64x130x130) S1x32x130x130.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x128x128.size a ≤ S8x576x128x128.size a
  hwx0_1 : ∀ i : grid0.Coords, EltTy.bits .f32 = 32 ∨ (Rect.block (s := S8x576x128x128) S1x288x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128x128.size a ≤ S8x64x128x128.size a
  hwx0_2 : ∀ i : grid0.Coords, EltTy.bits .f32 = 32 ∨ (Rect.block (s := S8x64x128x128) S1x32x128x128.size (cc0_transform_2 i) (hinb0_2 i)).WholeWords (EltTy.packing .f32)

variable [Facts₀]

abbrev win0_0 : Pipeline.Window sig grid0 :=
  Pipeline.Window.ofSpec (Memref.whole main_v0) S1x32x130x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x288x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x128x128 : Shape := ⟨4, ![8, 64, 128, 128]⟩
abbrev S8x576x128x128 : Shape := ⟨4, ![8, 576, 128, 128]⟩
abbrev S_ : Shape := ⟨0, ![]⟩
abbrev S8x64x130x130 : Shape := ⟨4, ![8, 64, 130, 130]⟩
abbrev S8x64x128x128x1 : Shape := ⟨5, ![8, 64, 128, 128, 1]⟩
abbrev S8x64x128x128x9 : Shape := ⟨5, ![8, 64, 128, 128, 9]⟩
abbrev S8x128x128x576 : Shape := ⟨4, ![8, 128, 128, 576]⟩
abbrev S8x128x128x64x9 : Shape := ⟨5, ![8, 128, 128, 64, 9]⟩
abbrev S8x128x128x64 : Shape := ⟨4, ![8, 128, 128, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S8x576x128x128, .f32⟩
  | .hbm, ⟨2, _⟩ => ⟨S_, .i32⟩
  | .hbm, ⟨3, _⟩ => ⟨S_, .f32⟩
  | .hbm, ⟨4, _⟩ => ⟨S8x64x130x130, .f32⟩
  | .hbm, ⟨5, _⟩ => ⟨S8x64x128x128, .f32⟩
  | .hbm, ⟨6, _⟩ => ⟨S8x64x128x128, .f32⟩
  | .hbm, ⟨7, _⟩ => ⟨S8x64x128x128, .f32⟩
  | .hbm, ⟨8, _⟩ => ⟨S8x64x128x128, .f32⟩
  | .hbm, ⟨9, _⟩ => ⟨S8x64x128x128, .f32⟩
  | .hbm, ⟨10, _⟩ => ⟨S8x64x128x128, .f32⟩
  | .hbm, ⟨11, _⟩ => ⟨S8x64x128x128, .f32⟩
  | .hbm, ⟨12, _⟩ => ⟨S8x64x128x128, .f32⟩
  | .hbm, ⟨13, _⟩ => ⟨S8x64x128x128, .f32⟩
  | .hbm, ⟨14, _⟩ => ⟨S8x64x128x128x1, .f32⟩
  | .hbm, ⟨15, _⟩ => ⟨S8x64x128x128x1, .f32⟩
  | .hbm, ⟨16, _⟩ => ⟨S8x64x128x128x1, .f32⟩
  | .hbm, ⟨17, _⟩ => ⟨S8x64x128x128x1, .f32⟩
  | .hbm, ⟨18, _⟩ => ⟨S8x64x128x128x1, .f32⟩
  | .hbm, ⟨19, _⟩ => ⟨S8x64x128x128x1, .f32⟩
  | .hbm, ⟨20, _⟩ => ⟨S8x64x128x128x1, .f32⟩
  | .hbm, ⟨21, _⟩ => ⟨S8x64x128x128x1, .f32⟩
  | .hbm, ⟨22, _⟩ => ⟨S8x64x128x128x1, .f32⟩
  | .hbm, ⟨23, _⟩ => ⟨S8x64x128x128x9, .f32⟩
  | .hbm, ⟨24, _⟩ => ⟨S8x128x128x576, .f32⟩
  | .hbm, ⟨25, _⟩ => ⟨S8x128x128x64x9, .f32⟩
  | .hbm, ⟨26, _⟩ => ⟨S8x128x128x64x9, .f32⟩
  | .hbm, ⟨27, _⟩ => ⟨S8x128x128x64x9, .f32⟩
  | .hbm, ⟨28, _⟩ => ⟨S_, .f32⟩
  | .hbm, ⟨29, _⟩ => ⟨S8x128x128x64, .f32⟩
  | .hbm, ⟨30, _⟩ => ⟨S8x64x128x128, .f32⟩
  | .hbm, ⟨31, _⟩ => ⟨S_, .f32⟩
  | .hbm, ⟨32, _⟩ => ⟨S8x64x128x128, .f32⟩
  | .hbm, ⟨33, _⟩ => ⟨S8x64x128x128, .i1⟩
  | .hbm, ⟨34, _⟩ => ⟨S_, .f32⟩
  | .hbm, ⟨35, _⟩ => ⟨S8x64x128x128, .f32⟩
  | .hbm, ⟨36, _⟩ => ⟨S8x64x128x128, .f32⟩
  | .hbm, ⟨37, _⟩ => ⟨S8x64x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  pads_S8x64x128x128_S8x64x130x130_000_000_110_110 : S8x64x128x128.Pads (![0, 0, 1, 1] : Fin 4 → Nat) ![0, 0, 1, 1] ![0, 0, 0, 0] S8x64x130x130
  h_S_ : 0 < S_.numel
  slices_S8x64x130x130_S8x64x128x128_0_0_0_0 : S8x64x130x130.Slices ![0, 0, 0, 0] S8x64x128x128
  slices_S8x64x130x130_S8x64x128x128_0_0_0_1 : S8x64x130x130.Slices ![0, 0, 0, 1] S8x64x128x128
  slices_S8x64x130x130_S8x64x128x128_0_0_0_2 : S8x64x130x130.Slices ![0, 0, 0, 2] S8x64x128x128
  slices_S8x64x130x130_S8x64x128x128_0_0_1_0 : S8x64x130x130.Slices ![0, 0, 1, 0] S8x64x128x128
  slices_S8x64x130x130_S8x64x128x128_0_0_1_1 : S8x64x130x130.Slices ![0, 0, 1, 1] S8x64x128x128
  slices_S8x64x130x130_S8x64x128x128_0_0_1_2 : S8x64x130x130.Slices ![0, 0, 1, 2] S8x64x128x128
  slices_S8x64x130x130_S8x64x128x128_0_0_2_0 : S8x64x130x130.Slices ![0, 0, 2, 0] S8x64x128x128
  slices_S8x64x130x130_S8x64x128x128_0_0_2_1 : S8x64x130x130.Slices ![0, 0, 2, 1] S8x64x128x128
  slices_S8x64x130x130_S8x64x128x128_0_0_2_2 : S8x64x130x130.Slices ![0, 0, 2, 2] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x1_S8x64x128x128x1_S8x64x128x128x1_S8x64x128x128x1_S8x64x128x128x1_S8x64x128x128x1_S8x64x128x128x1_S8x64x128x128x9_d4 : Shape.Concatenates [S8x64x128x128x1, S8x64x128x128x1, S8x64x128x128x1, S8x64x128x128x1, S8x64x128x128x1, S8x64x128x128x1, S8x64x128x128x1, S8x64x128x128x1, S8x64x128x128x1] S8x64x128x128x9 4
  transposes_S8x576x128x128_S8x128x128x576_0_2_3_1 : S8x576x128x128.Transposes [0, 2, 3, 1] S8x128x128x576
  shapeCasts_S8x128x128x576_S8x128x128x64x9 : S8x128x128x576.ShapeCasts S8x128x128x64x9
  transposes_S8x64x128x128x9_S8x128x128x64x9_0_2_3_1_4 : S8x64x128x128x9.Transposes [0, 2, 3, 1, 4] S8x128x128x64x9
  reducesTo_S8x128x128x64x9_S8x128x128x64_d4 : S8x128x128x64x9.ReducesTo [4] S8x128x128x64
  transposes_S8x128x128x64_S8x64x128x128_0_3_1_2 : S8x128x128x64.Transposes [0, 3, 1, 2] S8x64x128x128
  bcast_S_S8x64x128x128 : S_.BroadcastsInDim S8x64x128x128 (![] : Fin 0 → Fin S8x64x128x128.rank)

variable [Facts₀]

class Facts : Prop extends Facts₀ where

variable [Facts]
-- ==== Proof.Spec.lean ====
/-
  The function both programs compute, written once over the arrays they share, and the one law of addition that joins
  the two ways of summing its nine terms.

  Per-pixel dynamic filtering: for batch `n`, channel `c` and pixel `(h, w)` the result is the leaky rectifier of the sum,
  over the nine taps `k = 3·kh + kw` of a 3×3 window, of the zero-padded feature map at `(n, c, h + kh, w + kw)` times the
  pixel's own filter coefficient at channel `9·c + k`. The padded map `P` is an argument here: both programs build it by
  the same padding of the same array, so it is never opened.

  One side adds the nine products onto zero one after the other, the other adds zero to their sum; on the extended reals
  addition is associative, so the two agree at every input, infinite or not.
-/
import Idealize.ShloMosaic.PureOps.Ideal
import Idealize.ShloMosaic.Lib.ValueIdx

noncomputable section

open scoped BigOperators
open Idealize.ShloMosaic Idealize.ShloMosaic.ValueIdx

namespace Cert.Fac

/-- The padded feature map's shape: one row and one column of zeros on every side of each 128×128 plane. -/
abbrev SPad : Shape := ⟨4, ![8, 64, 130, 130]⟩
/-- The filters' shape: nine coefficients per channel, channel-major, for every pixel. -/
abbrev SFil : Shape := ⟨4, ![8, 576, 128, 128]⟩
/-- The result's shape. -/
abbrev SOut : Shape := ⟨4, ![8, 64, 128, 128]⟩

/-- The padded row tap `k` reads for output row `h`: `h + kh` with `kh = k / 3`. -/
def tapRow (h : Fin 128) (k : Fin 9) : Fin 130 := ⟨k.val / 3 + h.val, by have := h.isLt; have := k.isLt; omega⟩
/-- The padded column tap `k` reads for output column `w`: `w + kw` with `kw = k % 3`. -/
def tapCol (w : Fin 128) (k : Fin 9) : Fin 130 := ⟨k.val % 3 + w.val, by have := w.isLt; have := k.isLt; omega⟩
/-- The filter channel holding tap `k` of feature channel `c`: `9·c + k`. -/
def tapChan (c : Fin 64) (k : Fin 9) : Fin 576 := ⟨c.val * 9 + k.val, by have := c.isLt; have := k.isLt; omega⟩

/-- The zero both programs start their sum from and compare against. -/
def zeroW : EReal := Ideal.ofBits .f32 0x00000000#32
/-- The slope of the rectifier's negative branch, the same binary word in both programs. -/
def slopeW : EReal := Ideal.ofBits .f32 0x3E4CCCCD#32

/-- The leaky rectifier: `a` where `a ≥ 0`, the slope times `a` elsewhere. -/
def leaky (a : EReal) : EReal := Scalar.select (Ideal.cmp .oge a zeroW) a (slopeW * a)

/-- One tap's product at an output position. -/
def tap (P : FVec Ideal SPad .f32) (W : FVec Ideal SFil .f32) (n : Fin 8) (c : Fin 64) (h w : Fin 128) (k : Fin 9) : EReal :=
  P (ix4 n c (tapRow h k) (tapCol w k)) * W (ix4 n (tapChan c k) h w)

/-- The filtered, rectified value at an output position, by its four coordinates. -/
def outAt (P : FVec Ideal SPad .f32) (W : FVec Ideal SFil .f32) (n : Fin 8) (c : Fin 64) (h w : Fin 128) : EReal :=
  leaky (zeroW + ∑ k : Fin 9, tap P W n c h w k)

/-- THE RESULT as one function of the padded feature map and the filters, index by index. -/
def G (P : FVec Ideal SPad .f32) (W : FVec Ideal SFil .f32) : FVec Ideal SOut .f32 :=
  fun i => outAt P W (i 0) (i 1) (i 2) (i 3)

theorem G_apply (P : FVec Ideal SPad .f32) (W : FVec Ideal SFil .f32) (n : Fin 8) (c : Fin 64) (h w : Fin 128) :
    G P W (ix4 n c h w) = outAt P W n c h w := rfl

/-- Adding nine terms onto a start value one after the other is the start value plus their sum: associativity of
    addition alone, so it holds on the extended reals whatever the terms are. -/
theorem chain_eq_sum (z : EReal) (t : Fin 9 → EReal) :
    ((((((((z + t 0) + t 1) + t 2) + t 3) + t 4) + t 5) + t 6) + t 7) + t 8 = z + ∑ k : Fin 9, t k := by
  rw [Fin.sum_univ_castSucc, Fin.sum_univ_eight]
  simp only [add_assoc]
  rfl

end Cert.Fac

end
-- ==== Proof.BodyValue.lean ====
/-
  The kernel body's stored block, read at one position: for channel `c` of the block and pixel `(h, w)` it is the leaky
  rectifier of zero plus the nine products of the padded feature block at `(c, h + kh, w + kw)` with the filter block at
  channel `9·c + k`, `k = 3·kh + kw`.
-/
import proofs.«106913_j67946382622953_1_alg».proof.Proof.Gen.KernelIdeal.Frame
import proofs.«106913_j67946382622953_1_alg».proof.Proof.Spec
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.ShloMosaic.ValueIdx Idealize.SL.Sem

namespace Cert.KernelIdeal.Body

open Cert.KernelIdeal Cert.KernelIdeal.Gen

/-- The channel of a filter block that holds tap `k` of the block's feature channel `c`: `9·c + k`. -/
def blkChan (c : Fin 32) (k : Fin 9) : Fin 288 := ⟨c.val * 9 + k.val, by have := c.isLt; have := k.isLt; omega⟩

/-! ### Layout steps, each over a variable vector -/

/-- A 128×128 window of a [32,130,130] vector at row offset `kh` and column offset `kw`. -/
theorem window_apply (v : FVec Ideal S32x130x130 .f32) (off : Fin 3 → Nat) (kh kw : Nat)
    (h0 : off 0 = 0) (h1 : off 1 = kh) (h2 : off 2 = kw)
    (hs : S32x130x130.Slices off S32x128x128) (c : Fin 32) (h w : Fin 128)
    (hh : kh + h.val < 130) (hw : kw + w.val < 130) :
    extractStridedSlice S32x128x128 off v hs (ix3 c h w)
      = v (ix3 c (⟨kh + h.val, hh⟩ : Fin 130) (⟨kw + w.val, hw⟩ : Fin 130)) := by
  refine extractStridedSlice_apply off v hs (ix3 c h w)
    (ix3 c (⟨kh + h.val, hh⟩ : Fin 130) (⟨kw + w.val, hw⟩ : Fin 130)) ?_
  intro a
  match a with
  | ⟨0, _⟩ => show c.val = off 0 + c.val; omega
  | ⟨1, _⟩ => show kh + h.val = off 1 + h.val; omega
  | ⟨2, _⟩ => show kw + w.val = off 2 + w.val; omega

/-- The feature block with its leading unit axis dropped: the same entry. -/
theorem pay2_apply (x0 : Vec Ideal S1x32x130x130 .f32) (c : Fin 32) (r s : Fin 130) :
    k0_pay2 (F := Ideal) x0 (ix3 c r s) = x0 (ix4 (0 : Fin 1) c r s) := by
  unfold k0_pay2
  refine shapeCast_apply x0 shapeCasts_S1x32x130x130_S32x130x130 (ix3 c r s) (ix4 (0 : Fin 1) c r s) ?_
  rw [Shape.rowMajor_val_four, Shape.rowMajor_val_three]
  show ((0 * 32 + c.val) * 130 + r.val) * 130 + s.val = (c.val * 130 + r.val) * 130 + s.val
  omega

/-- Dropping the unit axis of a [32,1,128,128] vector. -/
theorem squeeze_apply (v : FVec Ideal S32x1x128x128 .f32) (c : Fin 32) (h w : Fin 128) :
    shapeCast S32x128x128 v shapeCasts_S32x1x128x128_S32x128x128 (ix3 c h w) = v (ix4 c (0 : Fin 1) h w) := by
  refine shapeCast_apply v shapeCasts_S32x1x128x128_S32x128x128 (ix3 c h w) (ix4 c (0 : Fin 1) h w) ?_
  rw [Shape.rowMajor_val_four, Shape.rowMajor_val_three]
  show ((c.val * 1 + 0) * 128 + h.val) * 128 + w.val = (c.val * 128 + h.val) * 128 + w.val
  omega

/-- A unit slice along the tap axis of a [32,9,128,128] vector. -/
theorem tapSlice_apply (v : FVec Ideal S32x9x128x128 .f32) (off : Fin 4 → Nat) (k : Fin 9)
    (h0 : off 0 = 0) (h1 : off 1 = k.val) (h2 : off 2 = 0) (h3 : off 3 = 0)
    (hs : S32x9x128x128.Slices off S32x1x128x128) (c : Fin 32) (h w : Fin 128) :
    extractStridedSlice S32x1x128x128 off v hs (ix4 c (0 : Fin 1) h w) = v (ix4 c k h w) := by
  refine extractStridedSlice_apply off v hs (ix4 c (0 : Fin 1) h w) (ix4 c k h w) ?_
  intro a
  match a with
  | ⟨0, _⟩ => show c.val = off 0 + c.val; omega
  | ⟨1, _⟩ => show k.val = off 1 + 0; omega
  | ⟨2, _⟩ => show h.val = off 2 + h.val; omega
  | ⟨3, _⟩ => show w.val = off 3 + w.val; omega

/-- The filter block viewed [32,9,128,128]: entry `(c, k)` is channel `9·c + k`, the row-major position
    `((9·c + k)·128 + h)·128 + w` being the same under both shapes. -/
theorem pay3_apply (x1 : Vec Ideal S1x288x128x128 .f32) (c : Fin 32) (k : Fin 9) (h w : Fin 128) :
    k0_pay3 (F := Ideal) x1 (ix4 c k h w) = x1 (ix4 (0 : Fin 1) (blkChan c k) h w) := by
  unfold k0_pay3
  refine (shapeCast_apply _ shapeCasts_S288x128x128_S32x9x128x128 (ix4 c k h w)
    (ix3 (blkChan c k) h w) ?_).trans ?_
  · rw [Shape.rowMajor_val_four, Shape.rowMajor_val_three]
    show ((c.val * 9 + k.val) * 128 + h.val) * 128 + w.val = (((c.val * 9 + k.val) * 128 + h.val) * 128 + w.val)
    rfl
  refine (shapeCast_apply x1 shapeCasts_S1x288x128x128_S288x128x128 (ix3 (blkChan c k) h w)
    (ix4 (0 : Fin 1) (blkChan c k) h w) ?_)
  rw [Shape.rowMajor_val_four, Shape.rowMajor_val_three]
  show ((0 * 288 + (c.val * 9 + k.val)) * 128 + h.val) * 128 + w.val = ((c.val * 9 + k.val) * 128 + h.val) * 128 + w.val
  omega

/-! ### One tap -/

/-- Tap `k`'s product at `(c, h, w)`: the padded feature block at `(c, h + k / 3, w + k % 3)` times the filter block
    at channel `9·c + k`. -/
def tapProd (x0 : Vec Ideal S1x32x130x130 .f32) (x1 : Vec Ideal S1x288x128x128 .f32) (c : Fin 32) (h w : Fin 128)
    (k : Fin 9) : EReal :=
  x0 (ix4 (0 : Fin 1) c (Cert.Fac.tapRow h k) (Cert.Fac.tapCol w k)) * x1 (ix4 (0 : Fin 1) (blkChan c k) h w)

/-- The window of the feature block at tap `k`'s offsets reads the padded entry tap `k` names. -/
theorem patch_apply (x0 : Vec Ideal S1x32x130x130 .f32) (k : Fin 9) (off : Fin 3 → Nat)
    (h0 : off 0 = 0) (h1 : off 1 = k.val / 3) (h2 : off 2 = k.val % 3)
    (hs : S32x130x130.Slices off S32x128x128) (c : Fin 32) (h w : Fin 128) :
    extractStridedSlice S32x128x128 off (k0_pay2 (F := Ideal) x0) hs (ix3 c h w)
      = x0 (ix4 (0 : Fin 1) c (Cert.Fac.tapRow h k) (Cert.Fac.tapCol w k)) :=
  (window_apply _ off (k.val / 3) (k.val % 3) h0 h1 h2 hs c h w (Cert.Fac.tapRow h k).isLt (Cert.Fac.tapCol w k).isLt).trans
    (pay2_apply x0 c (Cert.Fac.tapRow h k) (Cert.Fac.tapCol w k))

/-- The squeezed unit slice of the filter block at tap `k` reads channel `9·c + k`. -/
theorem filt_apply (x1 : Vec Ideal S1x288x128x128 .f32) (k : Fin 9) (off : Fin 4 → Nat)
    (h0 : off 0 = 0) (h1 : off 1 = k.val) (h2 : off 2 = 0) (h3 : off 3 = 0)
    (hs : S32x9x128x128.Slices off S32x1x128x128) (c : Fin 32) (h w : Fin 128) :
    shapeCast S32x128x128 (extractStridedSlice S32x1x128x128 off (k0_pay3 (F := Ideal) x1) hs)
        shapeCasts_S32x1x128x128_S32x128x128 (ix3 c h w)
      = x1 (ix4 (0 : Fin 1) (blkChan c k) h w) :=
  (squeeze_apply _ c h w).trans ((tapSlice_apply _ off k h0 h1 h2 h3 hs c h w).trans (pay3_apply x1 c k h w))

/-- One accumulation step read at an index: the running sum there plus the tap's product. -/
theorem step_apply (acc p q : FVec Ideal S32x128x128 .f32) (i : S32x128x128.Idx) (a b d : EReal)
    (ha : acc i = a) (hp : p i = b) (hq : q i = d) : addf acc (mulf p q) i = a + b * d := by
  rw [← ha, ← hp, ← hq]; rfl

/-! ### The body's payloads at an index -/

/-- The first eight taps added one after the other onto the zero word, read at `(c, h, w)`. -/
theorem pay4_apply (x0 : Vec Ideal S1x32x130x130 .f32) (x1 : Vec Ideal S1x288x128x128 .f32) (c : Fin 32) (h w : Fin 128) :
    k0_pay4 (F := Ideal) x0 x1 (ix3 c h w)
      = (((((((Cert.Fac.zeroW + tapProd x0 x1 c h w 0) + tapProd x0 x1 c h w 1) + tapProd x0 x1 c h w 2)
          + tapProd x0 x1 c h w 3) + tapProd x0 x1 c h w 4) + tapProd x0 x1 c h w 5) + tapProd x0 x1 c h w 6)
          + tapProd x0 x1 c h w 7 := by
  unfold k0_pay4
  refine step_apply _ _ _ _ _ _ _ ?_
    (patch_apply x0 7 ![0, 2, 1] rfl rfl rfl slices_S32x130x130_o0_2_1_S32x128x128 c h w)
    (filt_apply x1 7 ![0, 7, 0, 0] rfl rfl rfl rfl slices_S32x9x128x128_o0_7_0_0_S32x1x128x128 c h w)
  refine step_apply _ _ _ _ _ _ _ ?_
    (patch_apply x0 6 ![0, 2, 0] rfl rfl rfl slices_S32x130x130_o0_2_0_S32x128x128 c h w)
    (filt_apply x1 6 ![0, 6, 0, 0] rfl rfl rfl rfl slices_S32x9x128x128_o0_6_0_0_S32x1x128x128 c h w)
  refine step_apply _ _ _ _ _ _ _ ?_
    (patch_apply x0 5 ![0, 1, 2] rfl rfl rfl slices_S32x130x130_o0_1_2_S32x128x128 c h w)
    (filt_apply x1 5 ![0, 5, 0, 0] rfl rfl rfl rfl slices_S32x9x128x128_o0_5_0_0_S32x1x128x128 c h w)
  refine step_apply _ _ _ _ _ _ _ ?_
    (patch_apply x0 4 ![0, 1, 1] rfl rfl rfl slices_S32x130x130_o0_1_1_S32x128x128 c h w)
    (filt_apply x1 4 ![0, 4, 0, 0] rfl rfl rfl rfl slices_S32x9x128x128_o0_4_0_0_S32x1x128x128 c h w)
  refine step_apply _ _ _ _ _ _ _ ?_
    (patch_apply x0 3 ![0, 1, 0] rfl rfl rfl slices_S32x130x130_o0_1_0_S32x128x128 c h w)
    (filt_apply x1 3 ![0, 3, 0, 0] rfl rfl rfl rfl slices_S32x9x128x128_o0_3_0_0_S32x1x128x128 c h w)
  refine step_apply _ _ _ _ _ _ _ ?_
    (patch_apply x0 2 ![0, 0, 2] rfl rfl rfl slices_S32x130x130_o0_0_2_S32x128x128 c h w)
    (filt_apply x1 2 ![0, 2, 0, 0] rfl rfl rfl rfl slices_S32x9x128x128_o0_2_0_0_S32x1x128x128 c h w)
  refine step_apply _ _ _ _ _ _ _ ?_
    (patch_apply x0 1 ![0, 0, 1] rfl rfl rfl slices_S32x130x130_o0_0_1_S32x128x128 c h w)
    (filt_apply x1 1 ![0, 1, 0, 0] rfl rfl rfl rfl slices_S32x9x128x128_o0_1_0_0_S32x1x128x128 c h w)
  refine step_apply _ _ _ _ _ _ _ ?_
    (patch_apply x0 0 ![0, 0, 0] rfl rfl rfl slices_S32x130x130_o0_0_0_S32x128x128 c h w)
    (filt_apply x1 0 ![0, 0, 0, 0] rfl rfl rfl rfl slices_S32x9x128x128_o0_0_0_0_S32x1x128x128 c h w)
  rfl

/-- The last step: the ninth product added, the rectifier applied pointwise, and the unit axis put back. -/
theorem pay1_apply (v45 v46 v48 : FVec Ideal S32x128x128 .f32) (c : Fin 32) (h w : Fin 128) :
    k0_pay1 (F := Ideal) v45 v46 v48 (ix4 (0 : Fin 1) c h w)
      = Cert.Fac.leaky (v45 (ix3 c h w) + v46 (ix3 c h w) * v48 (ix3 c h w)) := by
  unfold k0_pay1
  refine (shapeCast_apply _ shapeCasts_S32x128x128_S1x32x128x128 (ix4 (0 : Fin 1) c h w) (ix3 c h w) ?_).trans ?_
  · rw [Shape.rowMajor_val_four, Shape.rowMajor_val_three]
    show (c.val * 128 + h.val) * 128 + w.val = ((0 * 32 + c.val) * 128 + h.val) * 128 + w.val
    omega
  · rfl

/-- What the body leaves in the output block at `(0, c, h, w)`, from the two input blocks. -/
theorem out_apply (x0 : Vec Ideal S1x32x130x130 .f32) (x1 : Vec Ideal S1x288x128x128 .f32) (c : Fin 32) (h w : Fin 128) :
    out0_2 (F := Ideal) x0 x1 (ix4 (0 : Fin 1) c h w)
      = Cert.Fac.leaky (Cert.Fac.zeroW + ∑ k : Fin 9,
          x0 (ix4 (0 : Fin 1) c (Cert.Fac.tapRow h k) (Cert.Fac.tapCol w k)) * x1 (ix4 (0 : Fin 1) (blkChan c k) h w)) := by
  have hz : (![0, 0, 0, 0] : Fin 4 → Nat) = fun _ => 0 := funext fun a => by fin_cases a <;> rfl
  unfold out0_2
  rw [View.canon_unit_zero hz]
  simp only [View.ld_unit_zero (S := S1x32x130x130) hz, View.ld_unit_zero (S := S1x288x128x128) hz]
  refine (pay1_apply _ _ _ c h w).trans (congrArg Cert.Fac.leaky ?_)
  refine Eq.trans ?_ (Cert.Fac.chain_eq_sum Cert.Fac.zeroW (tapProd x0 x1 c h w))
  refine congrArg₂ (· + ·) (pay4_apply x0 x1 c h w) (congrArg₂ (· * ·) ?_ ?_)
  · unfold k0_pay5
    exact patch_apply x0 8 ![0, 2, 2] rfl rfl rfl slices_S32x130x130_o0_2_2_S32x128x128 c h w
  · unfold k0_pay6
    exact filt_apply x1 8 ![0, 8, 0, 0] rfl rfl rfl rfl slices_S32x9x128x128_o0_8_0_0_S32x1x128x128 c h w

end Cert.KernelIdeal.Body

end
-- ==== Proof.KernelValue.lean ====
/-
  From blocks to the whole array. The grid has sixteen points `(n, ct)`: batch `n` of eight, channel tile `ct` of two. At
  a point the feature window holds channels `32·ct … 32·ct + 31` of batch `n` of the padded map, whole padded planes; the
  filter window holds filter channels `288·ct … 288·ct + 287` of batch `n`; and the output block is channels
  `32·ct … 32·ct + 31` of batch `n` of the result. Since `9·(32·ct + c) + k = 288·ct + (9·c + k)`, what the body leaves at
  `(c, h, w)` of its block is the specification's value at `(n, 32·ct + c, h, w)`; the sixteen blocks tile the result.
-/
import proofs.«106913_j67946382622953_1_alg».proof.Proof.Gen.KernelIdeal.Value
import proofs.«106913_j67946382622953_1_alg».proof.Proof.Spec
import proofs.«106913_j67946382622953_1_alg».proof.Proof.BodyValue
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

/-- The feature map with one ring of the converted integer zero around every plane, as the host builds it before the
    region. -/
def padded (x : FVec Ideal S8x64x128x128 .f32) : FVec Ideal S8x64x130x130 .f32 :=
  pad S8x64x130x130 ![0, 0, 1, 1] ![0, 0, 1, 1] ![0, 0, 0, 0] x (sitofp .f32 (constantI S_ 32 0#32))
    pads_S8x64x128x128_S8x64x130x130_000_000_110_110 h_S_

/-- The region finds the padded feature map in the buffer its first window stages. -/
theorem V_main_v0 (c : Dev nD) :
    (V m c main_v0 : S8x64x130x130.Idx → EReal) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-- The three windows move together: at every point each is at block `(n, ct, 0, 0)`, `n < 8`, `ct < 2`. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) ≤ 7 ∧ win0_2.index t (1 : Fin 4) ≤ 1
    ∧ win0_2.index t (2 : Fin 4) = 0 ∧ win0_2.index t (3 : Fin 4) = 0 :=
  (by decide +kernel : ∀ t : Fin grid0.N, _)

/-- Every block `(n, ct)` of the result is some point's. -/
theorem idx_onto : ∀ (q0 : Fin 8) (q1 : Fin 2), ∃ t : Fin cfg0.N, win0_2.index t = ![q0.val, q1.val, 0, 0] :=
  (by decide +kernel : ∀ (q0 : Fin 8) (q1 : Fin 2), ∃ t : Fin grid0.N, win0_2.index t = ![q0.val, q1.val, 0, 0])

/-- ONE POSITION OF ONE BLOCK. If the feature block is channels `32·ct …` of batch `n` of `P` and the filter block is
    channels `288·ct …` of batch `n` of `W`, what the body leaves at `(c, h, w)` is the specification at
    `(n, 32·ct + c, h, w)`: the tap's filter channel is `288·ct + (9·c + k) = 9·(32·ct + c) + k`. -/
theorem block_eq (n : Fin 8) (ct : Fin 2) (P : FVec Ideal S8x64x130x130 .f32) (W : FVec Ideal S8x576x128x128 .f32)
    (x0 : Vec Ideal S1x32x130x130 .f32) (x1 : Vec Ideal S1x288x128x128 .f32)
    (h0 : ∀ (c : Fin 32) (r s : Fin 130),
      x0 (ix4 (0 : Fin 1) c r s) = P (ix4 n (⟨32 * ct.val + c.val, by have := ct.isLt; have := c.isLt; omega⟩ : Fin 64) r s))
    (h1 : ∀ (j : Fin 288) (h w : Fin 128),
      x1 (ix4 (0 : Fin 1) j h w) = W (ix4 n (⟨288 * ct.val + j.val, by have := ct.isLt; have := j.isLt; omega⟩ : Fin 576) h w))
    (c : Fin 32) (h w : Fin 128) :
    out0_2 (F := Ideal) x0 x1 (ix4 (0 : Fin 1) c h w)
      = Cert.Fac.G P W (ix4 n (⟨32 * ct.val + c.val, by have := ct.isLt; have := c.isLt; omega⟩ : Fin 64) h w) := by
  rw [Body.out_apply, Cert.Fac.G_apply]
  unfold Cert.Fac.outAt Cert.Fac.tap
  refine congrArg Cert.Fac.leaky (congrArg (Cert.Fac.zeroW + ·) (Finset.sum_congr rfl fun k _ => ?_))
  rw [h0, h1]
  refine congrArg (P _ * W ·) ?_
  refine congrArg (fun q : Fin 576 => ix4 n q h w) (Fin.ext ?_)
  show 288 * ct.val + (c.val * 9 + k.val) = (32 * ct.val + c.val) * 9 + k.val
  omega

/-- The same at any index `y` of the block and the array index `i` under it. -/
theorem block_eq_at (n : Fin 8) (ct : Fin 2) (P : FVec Ideal S8x64x130x130 .f32) (W : FVec Ideal S8x576x128x128 .f32)
    (x0 : Vec Ideal S1x32x130x130 .f32) (x1 : Vec Ideal S1x288x128x128 .f32)
    (h0 : ∀ (c : Fin 32) (r s : Fin 130),
      x0 (ix4 (0 : Fin 1) c r s) = P (ix4 n (⟨32 * ct.val + c.val, by have := ct.isLt; have := c.isLt; omega⟩ : Fin 64) r s))
    (h1 : ∀ (j : Fin 288) (h w : Fin 128),
      x1 (ix4 (0 : Fin 1) j h w) = W (ix4 n (⟨288 * ct.val + j.val, by have := ct.isLt; have := j.isLt; omega⟩ : Fin 576) h w))
    (y : S1x32x128x128.Idx) (i : S8x64x128x128.Idx)
    (hi0 : (i 0).val = n.val) (hi1 : (i 1).val = 32 * ct.val + (y 1).val) (hi2 : (i 2).val = (y 2).val)
    (hi3 : (i 3).val = (y 3).val) :
    out0_2 (F := Ideal) x0 x1 y = Cert.Fac.G P W i := by
  obtain ⟨a, c, h, w, rfl⟩ : ∃ (a : Fin 1) (c : Fin 32) (h w : Fin 128), y = ix4 a c h w := ⟨y 0, y 1, y 2, y 3, eq_ix4 y⟩
  obtain rfl : a = 0 := Subsingleton.elim _ _
  have hi : i = ix4 n (⟨32 * ct.val + c.val, by have := ct.isLt; have := c.isLt; omega⟩ : Fin 64) h w := by
    funext d
    match d with
    | ⟨0, _⟩ => exact Fin.ext hi0
    | ⟨1, _⟩ => exact Fin.ext hi1
    | ⟨2, _⟩ => exact Fin.ext hi2
    | ⟨3, _⟩ => exact Fin.ext hi3
  rw [hi]
  exact block_eq n ct P W x0 x1 h0 h1 c h w

/-- WHAT POINT `t` WRITES BACK is block `t` of the specification's function of the padded map and the filters as the
    region finds them. -/
theorem flushed_eq (c : Dev nD) (t : Fin cfg0.N) :
    (dats m 0 c).flushed 2 t
      = ((cfg0.win 2).blk t).view.read (Elt Ideal) (Cert.Fac.G (V m c main_v0) (V m c main_arg1)) := by
  rw [Value.flushed2]
  obtain ⟨e0, e1, e2, e3, e4, e5, e6, e7, b0, b1, z2, z3⟩ := idx_facts t
  funext j
  show out0_2 (iblk m c 0 t) (iblk m c 1 t) j
    = Cert.Fac.G (V m c main_v0) (V m c main_arg1) (((cfg0.win 2).blk t).view.emb j)
  refine block_eq_at (⟨win0_2.index t (0 : Fin 4), by omega⟩ : Fin 8) (⟨win0_2.index t (1 : Fin 4), by omega⟩ : Fin 2)
    (V m c main_v0) (V m c main_arg1) (iblk m c 0 t) (iblk m c 1 t) ?_ ?_ j (((cfg0.win 2).blk t).view.emb j) ?_ ?_ ?_ ?_
  · intro c' r s
    show V m c main_v0 (((cfg0.win 0).blk t).view.emb (ix4 (0 : Fin 1) c' r s)) = _
    refine congrArg (V m c main_v0) (funext fun a => Fin.ext ?_)
    match a with
    | ⟨0, _⟩ => show win0_0.index t (0 : Fin 4) * 1 + 1 * 0 = win0_2.index t (0 : Fin 4); omega
    | ⟨1, _⟩ => show win0_0.index t (1 : Fin 4) * 32 + 1 * c'.val = 32 * win0_2.index t (1 : Fin 4) + c'.val; omega
    | ⟨2, _⟩ => show win0_0.index t (2 : Fin 4) * 130 + 1 * r.val = r.val; omega
    | ⟨3, _⟩ => show win0_0.index t (3 : Fin 4) * 130 + 1 * s.val = s.val; omega
  · intro j' h w
    show V m c main_arg1 (((cfg0.win 1).blk t).view.emb (ix4 (0 : Fin 1) j' h w)) = _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 288 + 1 * j'.val = 288 * win0_2.index t (1 : Fin 4) + j'.val; omega
    | ⟨2, _⟩ => show win0_1.index t (2 : Fin 4) * 128 + 1 * h.val = h.val; omega
    | ⟨3, _⟩ => show win0_1.index t (3 : Fin 4) * 128 + 1 * w.val = w.val; omega
  · show win0_2.index t (0 : Fin 4) * 1 + 1 * (j 0).val = win0_2.index t (0 : Fin 4)
    have hj : (j 0).val < 1 := (j 0).isLt
    omega
  · show win0_2.index t (1 : Fin 4) * 32 + 1 * (j 1).val = 32 * win0_2.index t (1 : Fin 4) + (j 1).val
    omega
  · show win0_2.index t (2 : Fin 4) * 128 + 1 * (j 2).val = (j 2).val
    omega
  · show win0_2.index t (3 : Fin 4) * 128 + 1 * (j 3).val = (j 3).val
    omega

/-- An index of the result is in point `t`'s block iff each coordinate is in the block's range on its axis. -/
theorem mem_blk (t : Fin cfg0.N) (i : S8x64x128x128.Idx) :
    i ∈ ((cfg0.win 2).blk t).view.set ↔ ∀ a : Fin 4, win0_2.index t a * S1x32x128x128.size a ≤ (i a).val
      ∧ (i a).val < win0_2.index t a * S1x32x128x128.size a + S1x32x128x128.size a := by
  show i ∈ ((View.whole main_v1).slice (win0_2.rect t)).set ↔ _
  rw [View.set_slice_whole, Rect.mem_set_unit]
  exact Iff.rfl

/-- The sixteen blocks tile the result: index `(n, ch, h, w)` is in the block of the point at `(n, ch / 32)`. -/
theorem cover (i : S8x64x128x128.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 128 := (i 2).isLt
  have h3 : (i 3).val < 128 := (i 3).isLt
  obtain ⟨t, ht⟩ := idx_onto ⟨(i 0).val, h0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- The kernel's result: the specification's function of the padded feature argument and the filter argument. -/
def result (c : Dev nD) : FVec Ideal S8x64x128x128 .f32 :=
  Cert.Fac.G (padded (m ((c : Thread nD τ).loc main_arg0))) (m ((c : Thread nD τ).loc main_arg1))

/-- THE ARRAY after the run is that function, everywhere. -/
theorem final (c : Dev nD) : (dats m 0 c).arrAt 2 cfg0.N = result m c := by
  rw [(dats m 0 c).arrAt_eq_of_cover 2 (Cert.Fac.G (V m c main_v0) (V m c main_arg1)) (fun t _ => flushed_eq m c t) cover]
  unfold result
  rw [V_main_v0, V_main_arg1]

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result, read index by index, is the specification's function of the padded feature map and the filters:
  its nine shifted slices of the padded map, stacked on a last axis and multiplied by the filters regrouped as
  (pixel, channel, tap), are the nine tap products; its sum over the last axis from zero is zero plus their sum.
-/
import proofs.«106913_j67946382622953_1_alg».proof.Proof.Gen.ReferenceIdeal.Read
import proofs.«106913_j67946382622953_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-! ## The filters regrouped

The filters `[8, 576, 128, 128]` are moved to `[8, 128, 128, 576]` and their last axis is split as `576 = 64 · 9`:
position `(n, h, w, c, k)` of the regrouped array has row-major position `(((n·128 + h)·128 + w)·64 + c)·9 + k`, whose
last-axis part in the unsplit array is `9·c + k`, the filter channel of tap `k` of channel `c`. -/

/-- The regrouped filters at pixel `(h, w)`, channel `c`, tap `k` are the filters at channel `9·c + k` of that pixel. -/
theorem fil_at (x1 : FVec Ideal S8x576x128x128 .f32) (n : Fin 8) (c : Fin 64) (h w : Fin 128) (k : Fin 9) :
    val_main_v21 (F := Ideal) x1 (ix5 n h w c k) = x1 (ix4 n (Cert.Fac.tapChan c k) h w) := by
  refine (val_main_v21_apply (F := Ideal) x1 _).trans ?_
  refine (val_main_v20_apply (F := Ideal) x1 _).trans ?_
  refine congrArg x1 ?_
  have hn := n.isLt; have hc := c.isLt; have hh := h.isLt; have hw := w.isLt; have hk := k.isLt
  funext a
  refine Fin.ext ?_
  match a with
  | ⟨0, _⟩ => show ((((n.val * 128 + h.val) * 128 + w.val) * 64 + c.val) * 9 + k.val) / 9437184 = n.val; omega
  | ⟨1, _⟩ => show ((((n.val * 128 + h.val) * 128 + w.val) * 64 + c.val) * 9 + k.val) % 576 = c.val * 9 + k.val; omega
  | ⟨2, _⟩ => show ((((n.val * 128 + h.val) * 128 + w.val) * 64 + c.val) * 9 + k.val) / 73728 % 128 = h.val; omega
  | ⟨3, _⟩ => show ((((n.val * 128 + h.val) * 128 + w.val) * 64 + c.val) * 9 + k.val) / 576 % 128 = w.val; omega

/-! ## The nine shifted slices, stacked

The stack has nine pieces of extent one along its last axis, so its element `(n, c, h, w, k)` is piece `k` at
`(n, c, h, w, 0)`; piece `k` is the slice of the padded map that starts at row `k / 3` and column `k % 3`, with a unit
axis appended, so that element is the padded map at `(n, c, k / 3 + h, k % 3 + w)`. -/

/-- The stack at `(n, c, h, w, K)` is its `K`-th piece at `(n, c, h, w, 0)`: the `K` pieces before it take up `K` positions
    of the last axis. -/
theorem piece_read (x0 : FVec Ideal S8x64x128x128 .f32) (K : Nat) (hK : K < 9) (x₁ : S8x64x128x128x1.Idx → EReal)
    (hx : ([⟨S8x64x128x128x1, val_main_v10 (F := Ideal) x0⟩, ⟨S8x64x128x128x1, val_main_v11 (F := Ideal) x0⟩,
        ⟨S8x64x128x128x1, val_main_v12 (F := Ideal) x0⟩, ⟨S8x64x128x128x1, val_main_v13 (F := Ideal) x0⟩,
        ⟨S8x64x128x128x1, val_main_v14 (F := Ideal) x0⟩, ⟨S8x64x128x128x1, val_main_v15 (F := Ideal) x0⟩,
        ⟨S8x64x128x128x1, val_main_v16 (F := Ideal) x0⟩, ⟨S8x64x128x128x1, val_main_v17 (F := Ideal) x0⟩,
        ⟨S8x64x128x128x1, val_main_v18 (F := Ideal) x0⟩] : List ((s : Shape) × (s.Idx → EReal)))[K]'hK
          = ⟨S8x64x128x128x1, x₁⟩)
    (n : Fin 8) (c : Fin 64) (h w : Fin 128) :
    val_main_v19 (F := Ideal) x0 (ix5 n c h w (⟨K, hK⟩ : Fin 9)) = x₁ (ix5 n c h w (0 : Fin 1)) := by
  unfold val_main_v19
  exact concatenate_apply_piece (t := S8x64x128x128x9) 4 _ _ (ix5 n c h w (⟨K, hK⟩ : Fin 9)) K (by exact hK)
    S8x64x128x128x1 x₁ hx rfl K (by interval_cases K <;> rfl)
    (ix5 n c h w (0 : Fin 1))
    (fun b => match b with
      | ⟨0, _⟩ => fun _ => rfl
      | ⟨1, _⟩ => fun _ => rfl
      | ⟨2, _⟩ => fun _ => rfl
      | ⟨3, _⟩ => fun _ => rfl
      | ⟨4, _⟩ => fun hne => absurd rfl hne)
    (Nat.add_zero K)

/-- Tap 0: the slice from row 0, column 0. -/
theorem pad_at_0 (x0 : FVec Ideal S8x64x128x128 .f32) (n : Fin 8) (c : Fin 64) (h w : Fin 128) :
    val_main_v19 (F := Ideal) x0 (ix5 n c h w (⟨0, by decide⟩ : Fin 9))
      = val_main_v0 (F := Ideal) x0 (ix4 n c (Cert.Fac.tapRow h ⟨0, by decide⟩) (Cert.Fac.tapCol w ⟨0, by decide⟩)) :=
  (piece_read x0 0 (by decide) (val_main_v10 (F := Ideal) x0) rfl n c h w).trans
    ((val_main_v10_apply (F := Ideal) x0 _).trans ((val_main_v1_apply (F := Ideal) x0 _).trans
      (congrArg (val_main_v0 (F := Ideal) x0) (funext fun a => Fin.ext (by
        match a with
        | ⟨0, _⟩ => rfl
        | ⟨1, _⟩ => rfl
        | ⟨2, _⟩ => show h.val = 0 + h.val; omega
        | ⟨3, _⟩ => show w.val = 0 + w.val; omega)))))

/-- Tap 1: the slice from row 0, column 1. -/
theorem pad_at_1 (x0 : FVec Ideal S8x64x128x128 .f32) (n : Fin 8) (c : Fin 64) (h w : Fin 128) :
    val_main_v19 (F := Ideal) x0 (ix5 n c h w (⟨1, by decide⟩ : Fin 9))
      = val_main_v0 (F := Ideal) x0 (ix4 n c (Cert.Fac.tapRow h ⟨1, by decide⟩) (Cert.Fac.tapCol w ⟨1, by decide⟩)) :=
  (piece_read x0 1 (by decide) (val_main_v11 (F := Ideal) x0) rfl n c h w).trans
    ((val_main_v11_apply (F := Ideal) x0 _).trans ((val_main_v2_apply (F := Ideal) x0 _).trans
      (congrArg (val_main_v0 (F := Ideal) x0) (funext fun a => Fin.ext (by
        match a with
        | ⟨0, _⟩ => rfl
        | ⟨1, _⟩ => rfl
        | ⟨2, _⟩ => show h.val = 0 + h.val; omega
        | ⟨3, _⟩ => show 1 + w.val = 1 + w.val; rfl)))))

/-- Tap 2: the slice from row 0, column 2. -/
theorem pad_at_2 (x0 : FVec Ideal S8x64x128x128 .f32) (n : Fin 8) (c : Fin 64) (h w : Fin 128) :
    val_main_v19 (F := Ideal) x0 (ix5 n c h w (⟨2, by decide⟩ : Fin 9))
      = val_main_v0 (F := Ideal) x0 (ix4 n c (Cert.Fac.tapRow h ⟨2, by decide⟩) (Cert.Fac.tapCol w ⟨2, by decide⟩)) :=
  (piece_read x0 2 (by decide) (val_main_v12 (F := Ideal) x0) rfl n c h w).trans
    ((val_main_v12_apply (F := Ideal) x0 _).trans ((val_main_v3_apply (F := Ideal) x0 _).trans
      (congrArg (val_main_v0 (F := Ideal) x0) (funext fun a => Fin.ext (by
        match a with
        | ⟨0, _⟩ => rfl
        | ⟨1, _⟩ => rfl
        | ⟨2, _⟩ => show h.val = 0 + h.val; omega
        | ⟨3, _⟩ => show 2 + w.val = 2 + w.val; rfl)))))

/-- Tap 3: the slice from row 1, column 0. -/
theorem pad_at_3 (x0 : FVec Ideal S8x64x128x128 .f32) (n : Fin 8) (c : Fin 64) (h w : Fin 128) :
    val_main_v19 (F := Ideal) x0 (ix5 n c h w (⟨3, by decide⟩ : Fin 9))
      = val_main_v0 (F := Ideal) x0 (ix4 n c (Cert.Fac.tapRow h ⟨3, by decide⟩) (Cert.Fac.tapCol w ⟨3, by decide⟩)) :=
  (piece_read x0 3 (by decide) (val_main_v13 (F := Ideal) x0) rfl n c h w).trans
    ((val_main_v13_apply (F := Ideal) x0 _).trans ((val_main_v4_apply (F := Ideal) x0 _).trans
      (congrArg (val_main_v0 (F := Ideal) x0) (funext fun a => Fin.ext (by
        match a with
        | ⟨0, _⟩ => rfl
        | ⟨1, _⟩ => rfl
        | ⟨2, _⟩ => show 1 + h.val = 1 + h.val; rfl
        | ⟨3, _⟩ => show w.val = 0 + w.val; omega)))))

/-- Tap 4: the slice from row 1, column 1. -/
theorem pad_at_4 (x0 : FVec Ideal S8x64x128x128 .f32) (n : Fin 8) (c : Fin 64) (h w : Fin 128) :
    val_main_v19 (F := Ideal) x0 (ix5 n c h w (⟨4, by decide⟩ : Fin 9))
      = val_main_v0 (F := Ideal) x0 (ix4 n c (Cert.Fac.tapRow h ⟨4, by decide⟩) (Cert.Fac.tapCol w ⟨4, by decide⟩)) :=
  (piece_read x0 4 (by decide) (val_main_v14 (F := Ideal) x0) rfl n c h w).trans
    ((val_main_v14_apply (F := Ideal) x0 _).trans ((val_main_v5_apply (F := Ideal) x0 _).trans
      (congrArg (val_main_v0 (F := Ideal) x0) (funext fun a => Fin.ext (by
        match a with
        | ⟨0, _⟩ => rfl
        | ⟨1, _⟩ => rfl
        | ⟨2, _⟩ => show 1 + h.val = 1 + h.val; rfl
        | ⟨3, _⟩ => show 1 + w.val = 1 + w.val; rfl)))))

/-- Tap 5: the slice from row 1, column 2. -/
theorem pad_at_5 (x0 : FVec Ideal S8x64x128x128 .f32) (n : Fin 8) (c : Fin 64) (h w : Fin 128) :
    val_main_v19 (F := Ideal) x0 (ix5 n c h w (⟨5, by decide⟩ : Fin 9))
      = val_main_v0 (F := Ideal) x0 (ix4 n c (Cert.Fac.tapRow h ⟨5, by decide⟩) (Cert.Fac.tapCol w ⟨5, by decide⟩)) :=
  (piece_read x0 5 (by decide) (val_main_v15 (F := Ideal) x0) rfl n c h w).trans
    ((val_main_v15_apply (F := Ideal) x0 _).trans ((val_main_v6_apply (F := Ideal) x0 _).trans
      (congrArg (val_main_v0 (F := Ideal) x0) (funext fun a => Fin.ext (by
        match a with
        | ⟨0, _⟩ => rfl
        | ⟨1, _⟩ => rfl
        | ⟨2, _⟩ => show 1 + h.val = 1 + h.val; rfl
        | ⟨3, _⟩ => show 2 + w.val = 2 + w.val; rfl)))))

/-- Tap 6: the slice from row 2, column 0. -/
theorem pad_at_6 (x0 : FVec Ideal S8x64x128x128 .f32) (n : Fin 8) (c : Fin 64) (h w : Fin 128) :
    val_main_v19 (F := Ideal) x0 (ix5 n c h w (⟨6, by decide⟩ : Fin 9))
      = val_main_v0 (F := Ideal) x0 (ix4 n c (Cert.Fac.tapRow h ⟨6, by decide⟩) (Cert.Fac.tapCol w ⟨6, by decide⟩)) :=
  (piece_read x0 6 (by decide) (val_main_v16 (F := Ideal) x0) rfl n c h w).trans
    ((val_main_v16_apply (F := Ideal) x0 _).trans ((val_main_v7_apply (F := Ideal) x0 _).trans
      (congrArg (val_main_v0 (F := Ideal) x0) (funext fun a => Fin.ext (by
        match a with
        | ⟨0, _⟩ => rfl
        | ⟨1, _⟩ => rfl
        | ⟨2, _⟩ => show 2 + h.val = 2 + h.val; rfl
        | ⟨3, _⟩ => show w.val = 0 + w.val; omega)))))

/-- Tap 7: the slice from row 2, column 1. -/
theorem pad_at_7 (x0 : FVec Ideal S8x64x128x128 .f32) (n : Fin 8) (c : Fin 64) (h w : Fin 128) :
    val_main_v19 (F := Ideal) x0 (ix5 n c h w (⟨7, by decide⟩ : Fin 9))
      = val_main_v0 (F := Ideal) x0 (ix4 n c (Cert.Fac.tapRow h ⟨7, by decide⟩) (Cert.Fac.tapCol w ⟨7, by decide⟩)) :=
  (piece_read x0 7 (by decide) (val_main_v17 (F := Ideal) x0) rfl n c h w).trans
    ((val_main_v17_apply (F := Ideal) x0 _).trans ((val_main_v8_apply (F := Ideal) x0 _).trans
      (congrArg (val_main_v0 (F := Ideal) x0) (funext fun a => Fin.ext (by
        match a with
        | ⟨0, _⟩ => rfl
        | ⟨1, _⟩ => rfl
        | ⟨2, _⟩ => show 2 + h.val = 2 + h.val; rfl
        | ⟨3, _⟩ => show 1 + w.val = 1 + w.val; rfl)))))

/-- Tap 8: the slice from row 2, column 2. -/
theorem pad_at_8 (x0 : FVec Ideal S8x64x128x128 .f32) (n : Fin 8) (c : Fin 64) (h w : Fin 128) :
    val_main_v19 (F := Ideal) x0 (ix5 n c h w (⟨8, by decide⟩ : Fin 9))
      = val_main_v0 (F := Ideal) x0 (ix4 n c (Cert.Fac.tapRow h ⟨8, by decide⟩) (Cert.Fac.tapCol w ⟨8, by decide⟩)) :=
  (piece_read x0 8 (by decide) (val_main_v18 (F := Ideal) x0) rfl n c h w).trans
    ((val_main_v18_apply (F := Ideal) x0 _).trans ((val_main_v9_apply (F := Ideal) x0 _).trans
      (congrArg (val_main_v0 (F := Ideal) x0) (funext fun a => Fin.ext (by
        match a with
        | ⟨0, _⟩ => rfl
        | ⟨1, _⟩ => rfl
        | ⟨2, _⟩ => show 2 + h.val = 2 + h.val; rfl
        | ⟨3, _⟩ => show 2 + w.val = 2 + w.val; rfl)))))

/-- The stack at `(n, c, h, w, k)` is the padded map at the position tap `k` reads for pixel `(h, w)`: one of the nine
    cases above. -/
theorem pad_at (x0 : FVec Ideal S8x64x128x128 .f32) (n : Fin 8) (c : Fin 64) (h w : Fin 128) : ∀ k : Fin 9,
    val_main_v19 (F := Ideal) x0 (ix5 n c h w k)
      = val_main_v0 (F := Ideal) x0 (ix4 n c (Cert.Fac.tapRow h k) (Cert.Fac.tapCol w k))
  | ⟨0, _⟩ => pad_at_0 x0 n c h w
  | ⟨1, _⟩ => pad_at_1 x0 n c h w
  | ⟨2, _⟩ => pad_at_2 x0 n c h w
  | ⟨3, _⟩ => pad_at_3 x0 n c h w
  | ⟨4, _⟩ => pad_at_4 x0 n c h w
  | ⟨5, _⟩ => pad_at_5 x0 n c h w
  | ⟨6, _⟩ => pad_at_6 x0 n c h w
  | ⟨7, _⟩ => pad_at_7 x0 n c h w
  | ⟨8, _⟩ => pad_at_8 x0 n c h w

/-! ## One tap's product, the sum, the rectifier -/

/-- The `k`-th term of the reference's sum at pixel `(h, w)` of channel `c` is the specification's `k`-th tap product. -/
theorem tap_at (x0 : FVec Ideal S8x64x128x128 .f32) (x1 : FVec Ideal S8x576x128x128 .f32)
    (n : Fin 8) (c : Fin 64) (h w : Fin 128) (k : Fin 9) :
    val_main_v23 (F := Ideal) x0 x1 (idx_main_v24 (idx_main_v25 (ix4 n c h w)) k)
      = Cert.Fac.tap (val_main_v0 (F := Ideal) x0) x1 n c h w k := by
  have e1 : idx_main_v24 (idx_main_v25 (ix4 n c h w)) k = ix5 n h w c k :=
    funext fun a => Fin.ext (by
      match a with
      | ⟨0, _⟩ => rfl
      | ⟨1, _⟩ => rfl
      | ⟨2, _⟩ => rfl
      | ⟨3, _⟩ => rfl
      | ⟨4, _⟩ => rfl)
  have e2 : idx_main_v22 (ix5 n h w c k) = ix5 n c h w k :=
    funext fun a => Fin.ext (by
      match a with
      | ⟨0, _⟩ => rfl
      | ⟨1, _⟩ => rfl
      | ⟨2, _⟩ => rfl
      | ⟨3, _⟩ => rfl
      | ⟨4, _⟩ => rfl)
  refine (congrArg (val_main_v23 (F := Ideal) x0 x1) e1).trans ?_
  refine (val_main_v23_apply (F := Ideal) x0 x1 _).trans ?_
  exact congrArg₂ (· * ·)
    ((val_main_v22_apply (F := Ideal) x0 _).trans
      ((congrArg (val_main_v19 (F := Ideal) x0) e2).trans (pad_at x0 n c h w k)))
    (fil_at x1 n c h w k)

/-- The reference's sum over the tap axis, moved back to channel-major order: zero plus the sum of the nine tap products. -/
theorem sum_at (x0 : FVec Ideal S8x64x128x128 .f32) (x1 : FVec Ideal S8x576x128x128 .f32)
    (n : Fin 8) (c : Fin 64) (h w : Fin 128) :
    val_main_v25 (F := Ideal) x0 x1 (ix4 n c h w)
      = Cert.Fac.zeroW + ∑ k : Fin 9, Cert.Fac.tap (val_main_v0 (F := Ideal) x0) x1 n c h w k := by
  refine (val_main_v25_apply (F := Ideal) x0 x1 _).trans ?_
  refine (val_main_v24_apply x0 x1 _).trans ?_
  exact congrArg₂ (· + ·) rfl (Finset.sum_congr rfl fun k _ => tap_at x0 x1 n c h w k)

/-- The reference's last stage is the specification's function of its own padded feature map and the filters. -/
theorem ref_eq (x0 : FVec Ideal S8x64x128x128 .f32) (x1 : FVec Ideal S8x576x128x128 .f32) :
    val_main_v30 (F := Ideal) x0 x1 = Cert.Fac.G (val_main_v0 (F := Ideal) x0) x1 := by
  funext i
  obtain ⟨n, c, h, w, rfl⟩ : ∃ (n : Fin 8) (c : Fin 64) (h w : Fin 128), i = ix4 n c h w :=
    ⟨i 0, i 1, i 2, i 3, eq_ix4 i⟩
  rw [Cert.Fac.G_apply]
  unfold Cert.Fac.outAt Cert.Fac.leaky
  rw [val_main_v30_apply, val_main_v27_apply, val_main_v29_apply, val_main_v26_apply, val_main_v28_apply, sum_at]
  rfl

end Cert.ReferenceIdeal.RefValue

end
-- ==== Proof.lean ====
/-
  Per-pixel dynamic 3×3 filtering followed by a leaky rectifier, as a tiled kernel and as array operations on the host,
  compute one function of the feature map and the filters on the extended reals.

  For batch `n`, channel `c` and pixel `(h, w)` both are the rectifier of the sum, over the nine taps `k = 3·kh + kw`, of the
  zero-padded feature map at `(n, c, h + kh, w + kw)` times the filter coefficient at channel `9·c + k` of that pixel. Both
  pad the same array by the same operation, multiply a patch by a coefficient in the same order, and rectify with the
  same slope word, so the two differ only in how the nine products are added: the kernel adds them onto zero one after
  the other, the host adds zero to their sum. Addition on the extended reals is associative, so the results are equal at
  every input; finiteness of the inputs is not used.

  The kernel's grid is eight batches by two tiles of thirty-two channels. A point's output block is its own batch and
  channel tile of the result, read from the same batch and tile of the padded map and from filter channels
  `288·ct … 288·ct + 287`; the sixteen blocks tile the result (Proof/KernelValue.lean, over the body's stored block read at
  a position in Proof/BodyValue.lean). The host's result is read stage by stage at an index in Proof/RefValue.lean. The
  function itself and the law of addition are Proof/Spec.lean.

  The idealized kernel is the kernel's own text read on the extended reals (no operation was rewritten), so that
  conjunct is trivial; the three programs run to completion with their arguments unchanged by their generated runs.
-/
import proofs.«106913_j67946382622953_1_alg».proof.Defs
import proofs.«106913_j67946382622953_1_alg».proof.Proof.Gen.Kernel
import proofs.«106913_j67946382622953_1_alg».proof.Proof.Gen.Kernel.Frame
import proofs.«106913_j67946382622953_1_alg».proof.Proof.Gen.KernelIdeal
import proofs.«106913_j67946382622953_1_alg».proof.Proof.Gen.KernelIdeal.Frame
import proofs.«106913_j67946382622953_1_alg».proof.Proof.Gen.KernelIdeal.Value
import proofs.«106913_j67946382622953_1_alg».proof.Proof.Gen.ReferenceIdeal
import proofs.«106913_j67946382622953_1_alg».proof.Proof.Gen.ReferenceIdeal.Run
import proofs.«106913_j67946382622953_1_alg».proof.Proof.Gen.ReferenceIdeal.Read
import proofs.«106913_j67946382622953_1_alg».proof.Proof.Gen.Pre_finite_inputs
import proofs.«106913_j67946382622953_1_alg».proof.Proof.Spec
import proofs.«106913_j67946382622953_1_alg».proof.Proof.BodyValue
import proofs.«106913_j67946382622953_1_alg».proof.Proof.KernelValue
import proofs.«106913_j67946382622953_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to completion and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the host program: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten, so there is nothing to preserve. -/
theorem preserves : Cert.preserves_Kernel_KernelIdeal := trivial

/-- From memories agreeing on the feature map and the filters, the kernel's result array and the host's both end at the
    specification's function of the padded feature map and the filters. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
